-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel

variable [Facts]

def fn {F : FTy → Type} [FloatOps F] (main_arg0 : FVec F S8x256x512 .f32) (main_arg1 : FVec F S8x256x512 .f32) (main_arg2 : FVec F S8x256x512 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x256x512 .f32 := Host.absf main_arg1
  let main_cst_0 : FVec F S_ .f32 := constant S_ .f32 0x7F800000#32
  let main_v5 : FVec F S8x256x512 .f32 := broadcastInDim S8x256x512 ![] bcast_S_S8x256x512 main_cst_0
  let main_v6 : IVec S8x256x512 1 := cmpf .olt main_v4 main_v5
  let main_c_1 : IVec S_ 1 := constantI S_ 1 1#1
  let main_v7 : IVec S_ 1 := (fun x v => Host.reduce IntOp.andi x v reducesTo_S8x256x512_S_d0_1_2 h_S_) main_v6 main_c_1
  let main_v8 : IVec S_ 1 := andi main_v3 main_v7
  let main_v9 : FVec F S8x256x512 .f32 := Host.absf main_arg2
  let main_cst_2 : FVec F S_ .f32 := constant S_ .f32 0x7F800000#32
  let main_v10 : FVec F S8x256x512 .f32 := broadcastInDim S8x256x512 ![] bcast_S_S8x256x512 main_cst_2
  let main_v11 : IVec S8x256x512 1 := cmpf .olt main_v9 main_v10
  let main_c_3 : IVec S_ 1 := constantI S_ 1 1#1
  let main_v12 : IVec S_ 1 := (fun x v => Host.reduce IntOp.andi x v reducesTo_S8x256x512_S_d0_1_2 h_S_) main_v11 main_c_3
  let main_v13 : IVec S_ 1 := andi main_v8 main_v12
  main_v13
-- ==== Kernel.lean ====
abbrev S8x256x512 : Shape := ⟨3, ![8, 256, 512]⟩
abbrev S1x64x512 : Shape := ⟨3, ![1, 64, 512]⟩
abbrev S1x256x512 : Shape := ⟨3, ![1, 256, 512]⟩
abbrev S64x256 : Shape := ⟨2, ![64, 256]⟩
abbrev S1x64x128 : Shape := ⟨3, ![1, 64, 128]⟩
abbrev S64x128 : Shape := ⟨2, ![64, 128]⟩
abbrev S1x256x128 : Shape := ⟨3, ![1, 256, 128]⟩
abbrev S256x128 : Shape := ⟨2, ![256, 128]⟩
abbrev S64x1x128 : Shape := ⟨3, ![64, 1, 128]⟩
abbrev S64x256x128 : Shape := ⟨3, ![64, 256, 128]⟩
abbrev S64 : Shape := ⟨1, ![64]⟩
abbrev S64x1 : Shape := ⟨2, ![64, 1]⟩
abbrev S256x512 : Shape := ⟨2, ![256, 512]⟩
abbrev S64x512 : Shape := ⟨2, ![64, 512]⟩

abbrev nBuf : Space → Nat
  | .hbm => 4
  | .vmem => 9
  | .smem => 0
  | _ => 0

abbrev bufTy : (tb : Table) → Fin (tcTables nBuf tb) → BufTy
  | .hbm, ⟨0, _⟩ => ⟨S8x256x512, .f32⟩
  | .hbm, ⟨1, _⟩ => ⟨S8x256x512, .f32⟩
  | .hbm, ⟨2, _⟩ => ⟨S8x256x512, .f32⟩
  | .hbm, ⟨3, _⟩ => ⟨S8x256x512, .f32⟩
  | .local _ .vmem, ⟨0, _⟩ => ⟨S1x64x512, .f32⟩
  | .local _ .vmem, ⟨1, _⟩ => ⟨S1x64x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x64x512, .f32⟩
  | .local _ .vmem, ⟨7, _⟩ => ⟨S1x64x512, .f32⟩
  | .local _ .vmem, ⟨8, _⟩ => ⟨S64x256, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x64x512_S1x64x128_0_0_0 : ∀ a, (![0, 0, 0] : Fin 3 → Nat) a + S1x64x128.size a ≤ S1x64x512.size a
  h_S1x64x128 : 0 < S1x64x128.numel
  shapeCasts_S1x64x128_S64x128 : S1x64x128.ShapeCasts S64x128
  inb_S1x256x512_S1x256x128_0_0_0 : ∀ a, (![0, 0, 0] : Fin 3 → Nat) a + S1x256x128.size a ≤ S1x256x512.size a
  h_S1x256x128 : 0 < S1x256x128.numel
  shapeCasts_S1x256x128_S256x128 : S1x256x128.ShapeCasts S256x128
  shapeCasts_S64x128_S64x1x128 : S64x128.ShapeCasts S64x1x128
  shapeCasts_S256x128_S1x256x128 : S256x128.ShapeCasts S1x256x128
  broadcasts_S64x1x128_S64x256x128 : S64x1x128.Broadcasts S64x256x128
  broadcasts_S1x256x128_S64x256x128 : S1x256x128.Broadcasts S64x256x128
  reduces_S64x256x128_S64x256 : S64x256x128.Reduces [2] S64x256
  inb_S1x64x512_S1x64x128_0_0_128 : ∀ a, (![0, 0, 128] : Fin 3 → Nat) a + S1x64x128.size a ≤ S1x64x512.size a
  inb_S1x256x512_S1x256x128_0_0_128 : ∀ a, (![0, 0, 128] : Fin 3 → Nat) a + S1x256x128.size a ≤ S1x256x512.size a
  inb_S1x64x512_S1x64x128_0_0_256 : ∀ a, (![0, 0, 256] : Fin 3 → Nat) a + S1x64x128.size a ≤ S1x64x512.size a
  inb_S1x256x512_S1x256x128_0_0_256 : ∀ a, (![0, 0, 256] : Fin 3 → Nat) a + S1x256x128.size a ≤ S1x256x512.size a
  inb_S1x64x512_S1x64x128_0_0_384 : ∀ a, (![0, 0, 384] : Fin 3 → Nat) a + S1x64x128.size a ≤ S1x64x512.size a
  inb_S1x256x512_S1x256x128_0_0_384 : ∀ a, (![0, 0, 384] : Fin 3 → Nat) a + S1x256x128.size a ≤ S1x256x512.size a
  reduces_S64x256_S64 : S64x256.Reduces [1] S64
  shapeCasts_S64_S64x1 : S64.ShapeCasts S64x1
  broadcasts_S64x1_S64x256 : S64x1.Broadcasts S64x256
  bitsLt_bf16_f32 : FTy.bits .bf16 < FTy.bits .f32
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  dot_S64x256_S256x512_S64x512_1_0_0_1_n_n_wf : DotDims.WF S64x256 S256x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S8x256x512.size a
  hwx0_0 : ∀ i : grid0.Coords, EltTy.bits .f32 = 32 ∨ (Rect.block (s := S8x256x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S8x256x512.size a
  hwx0_1 : ∀ i : grid0.Coords, EltTy.bits .f32 = 32 ∨ (Rect.block (s := S8x256x512) S1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S8x256x512.size a
  hwx0_2 : ∀ i : grid0.Coords, EltTy.bits .f32 = 32 ∨ (Rect.block (s := S8x256x512) S1x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S8x256x512.size a
  hwx0_3 : ∀ i : grid0.Coords, EltTy.bits .f32 = 32 ∨ (Rect.block (s := S8x256x512) S1x64x512.size (cc0_transform_3 i) (hinb0_3 i)).WholeWords (EltTy.packing .f32)

variable [Facts₀]

def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x256x1x512 : Shape := ⟨4, ![8, 256, 1, 512]⟩
abbrev S8x1x256x512 : Shape := ⟨4, ![8, 1, 256, 512]⟩
abbrev S8x256x256x512 : Shape := ⟨4, ![8, 256, 256, 512]⟩
abbrev S_ : Shape := ⟨0, ![]⟩
abbrev S8x256x256 : Shape := ⟨3, ![8, 256, 256]⟩
abbrev S8x256 : Shape := ⟨2, ![8, 256]⟩
abbrev S8x256x1 : Shape := ⟨3, ![8, 256, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x256x512, .f32⟩
  | .hbm, ⟨2, _⟩ => ⟨S8x256x512, .f32⟩
  | .hbm, ⟨3, _⟩ => ⟨S8x256x1x512, .f32⟩
  | .hbm, ⟨4, _⟩ => ⟨S8x1x256x512, .f32⟩
  | .hbm, ⟨5, _⟩ => ⟨S8x256x256x512, .f32⟩
  | .hbm, ⟨6, _⟩ => ⟨S8x256x256x512, .f32⟩
  | .hbm, ⟨7, _⟩ => ⟨S8x256x256x512, .f32⟩
  | .hbm, ⟨8, _⟩ => ⟨S8x256x256x512, .f32⟩
  | .hbm, ⟨9, _⟩ => ⟨S_, .f32⟩
  | .hbm, ⟨10, _⟩ => ⟨S8x256x256, .f32⟩
  | .hbm, ⟨11, _⟩ => ⟨S8x256x256, .f32⟩
  | .hbm, ⟨12, _⟩ => ⟨S_, .f32⟩
  | .hbm, ⟨13, _⟩ => ⟨S8x256, .f32⟩
  | .hbm, ⟨14, _⟩ => ⟨S_, .f32⟩
  | .hbm, ⟨15, _⟩ => ⟨S8x256, .f32⟩
  | .hbm, ⟨16, _⟩ => ⟨S8x256, .f32⟩
  | .hbm, ⟨17, _⟩ => ⟨S8x256x1, .f32⟩
  | .hbm, ⟨18, _⟩ => ⟨S8x256x256, .f32⟩
  | .hbm, ⟨19, _⟩ => ⟨S8x256x256, .f32⟩
  | .hbm, ⟨20, _⟩ => ⟨S8x256x256, .f32⟩
  | .hbm, ⟨21, _⟩ => ⟨S_, .f32⟩
  | .hbm, ⟨22, _⟩ => ⟨S8x256, .f32⟩
  | .hbm, ⟨23, _⟩ => ⟨S8x256x1, .f32⟩
  | .hbm, ⟨24, _⟩ => ⟨S8x256x256, .f32⟩
  | .hbm, ⟨25, _⟩ => ⟨S8x256x256, .f32⟩
  | .hbm, ⟨26, _⟩ => ⟨S8x256x512, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S8x256x512_S8x256x1x512_0_1_3 : S8x256x512.BroadcastsInDim S8x256x1x512 (![0, 1, 3] : Fin 3 → Fin S8x256x1x512.rank)
  bcast_S8x256x512_S8x1x256x512_0_2_3 : S8x256x512.BroadcastsInDim S8x1x256x512 (![0, 2, 3] : Fin 3 → Fin S8x1x256x512.rank)
  bcast_S8x256x1x512_S8x256x256x512_0_1_2_3 : S8x256x1x512.BroadcastsInDim S8x256x256x512 (![0, 1, 2, 3] : Fin 4 → Fin S8x256x256x512.rank)
  bcast_S8x1x256x512_S8x256x256x512_0_1_2_3 : S8x1x256x512.BroadcastsInDim S8x256x256x512 (![0, 1, 2, 3] : Fin 4 → Fin S8x256x256x512.rank)
  reducesTo_S8x256x256x512_S8x256x256_d3 : S8x256x256x512.ReducesTo [3] S8x256x256
  h_S_ : 0 < S_.numel
  reducesTo_S8x256x256_S8x256_d2 : S8x256x256.ReducesTo [2] S8x256
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  bcast_S8x256x1_S8x256x256_0_1_2 : S8x256x1.BroadcastsInDim S8x256x256 (![0, 1, 2] : Fin 3 → Fin S8x256x256.rank)
  dot_S8x256x256_S8x256x512_S8x256x512_2_1_1_2_0_0_wf : DotDims.WF S8x256x256 S8x256x512 S8x256x512 [2] [1] [1] [2] [0] [0]

variable [Facts₀]

def dot_S8x256x256_S8x256x512_S8x256x512_2_1_1_2_0_0 : DotDims S8x256x256 S8x256x512 S8x256x512 where
  lhsContracting := [2]
  rhsContracting := [1]
  lhsNonContracting := [1]
  rhsNonContracting := [2]
  lhsBatch := [0]
  rhsBatch := [0]
  wf := dot_S8x256x256_S8x256x512_S8x256x512_2_1_1_2_0_0_wf

class Facts : Prop extends Facts₀ where

variable [Facts]
-- ==== Proof.LibCoveredLoad.lean ====
/-
  A general fact about a buffer that is overwritten whole and then read whole.

  A kernel that keeps a running total in a scratch buffer stores the whole buffer, loads the whole buffer, adds, and
  stores the whole buffer again. Whatever the earlier stores were, a load of the whole buffer sees exactly the value
  of the LATEST whole store: every index of the buffer lies in that store's rectangle, so the earlier stores are
  hidden at every index.
-/
import Idealize.ShloMosaic.Lib.Pipeline.Value

noncomputable section

namespace Idealize.ShloMosaic.View

variable {Val : EltTy → Type} {S : Shape} {e : EltTy}

/-- A load through the whole-shape rectangle at zero offsets, after a list of stores whose LATEST one went through
    that same rectangle, reads the latest store's value; the earlier stores `L` do not matter. (With `L = []` this is
    the one-store case.) -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  rw [readCov_eq_canon_ld _ _ _ (fun y => ⟨_, List.mem_cons.mpr (Or.inl rfl), mem_set_unit_zero h inb y⟩),
    canon_cons_unit_zero h, ld_unit_zero h]

end Idealize.ShloMosaic.View

end
-- ==== Proof.Piece.lean ====
/-
  What one grid point leaves in its output block, as a pure function of the three input blocks it was given.

  At a grid point the body is handed a block `x0` of the queries (64 rows, 512 columns), and the whole slabs `x1` of
  keys and `x2` of values of one batch entry (256 rows, 512 columns each). It clears a 64 × 256 scratch, then four
  times reads a 128-column chunk of `x0` and the same chunk of `x1`, forms all 64 × 256 sums of absolute differences
  over that chunk, and adds them into the scratch; finally it reads the scratch back, turns it into attention weights,
  multiplies by `x2` and stores the 64 × 512 result as the whole output block.

  Every store into the scratch overwrites all of it and every load of the scratch reads all of it, so each load sees
  the value stored just before it (`readCov_cons_unit_zero`). Hence the output block is the last stage applied to the
  scratch after the fourth accumulation, and that scratch is the four accumulation stages composed, starting from
  the cleared scratch: a closed term in the body's pure stages and the chunks of `x0` and `x1`. This holds for any
  interpretation of the float operations; nothing here looks inside a stage.
-/
import proofs.«170743_j39024072852184_1_alg».proof.Proof.Gen.KernelIdeal.Frame
import proofs.«170743_j39024072852184_1_alg».proof.Proof.LibCoveredLoad
import Idealize.ShloMosaic.Lib.Pipeline.Value
import Idealize.ShloMosaic.Lib.Tactic

noncomputable section

namespace Cert.KernelIdeal.Piece

open Cert.KernelIdeal Cert.KernelIdeal.Gen Idealize.ShloMosaic Idealize.ShloMosaic.TcCoe Idealize.ShloMosaic.Tactic
open Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The scratch after the four accumulations: the cleared scratch, then for each 128-column chunk (columns 0–127,
    128–255, 256–383, 384–511) the stage that adds that chunk's sums of absolute differences between the rows of the
    query block `x0` and the rows of the key slab `x1`. -/
def distances (x0 : Vec F S1x64x512 .f32) (x1 : Vec F S1x256x512 .f32) : FVec F S64x256 .f32 :=
  k0_pay1 (k0_pay8 (View.ld x0 (Rect.unit (s := S1x64x512) ![0, 0, 384] S1x64x128.size inb_S1x64x512_S1x64x128_0_0_384)) (View.ld x1 (Rect.unit (s := S1x256x512) ![0, 0, 384] S1x256x128.size inb_S1x256x512_S1x256x128_0_0_384))
    (k0_pay7 (View.ld x0 (Rect.unit (s := S1x64x512) ![0, 0, 256] S1x64x128.size inb_S1x64x512_S1x64x128_0_0_256)) (View.ld x1 (Rect.unit (s := S1x256x512) ![0, 0, 256] S1x256x128.size inb_S1x256x512_S1x256x128_0_0_256))
      (k0_pay6 (k0_pay5 (View.ld x0 (Rect.unit (s := S1x64x512) ![0, 0, 128] S1x64x128.size inb_S1x64x512_S1x64x128_0_0_128)) (View.ld x1 (Rect.unit (s := S1x256x512) ![0, 0, 128] S1x256x128.size inb_S1x256x512_S1x256x128_0_0_128))
        (k0_pay4 (View.ld x0 (Rect.unit (s := S1x64x512) ![0, 0, 0] S1x64x128.size inb_S1x64x512_S1x64x128_0_0_0)) (View.ld x1 (Rect.unit (s := S1x256x512) ![0, 0, 0] S1x256x128.size inb_S1x256x512_S1x256x128_0_0_0)) (k0_pay3 (F := F)))))))

/-- The output block a grid point leaves is the final stage (weights from the distances, then the product with the
    value slab) applied to the accumulated distances and the value slab. -/
theorem out_eq (c : Dev nD) (i : grid0.Coords) (arg2 : Memref sig .tc .vmem S1x64x512 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x64x512 .f32) (harg5 : arg5.IsWhole) (arg6 : Memref sig .tc .vmem S64x256 .f32) (harg6 : arg6.IsWhole)
    (x0 : Vec F S1x64x512 .f32) (x1 : Vec F S1x256x512 .f32) (x2 : Vec F S1x256x512 .f32) :
    out0_A_3 c i arg2 harg2 arg3 harg3 arg4 harg4 arg5 harg5 arg6 harg6 x0 x1 x2 = k0_pay2 (distances x0 x1) x2 := by
  unfold out0_A_3
  rw [View.read_writes_eq_canon _ _ _ (cover0_A_3 c i arg2 harg2 arg3 harg3 arg4 harg4 arg5 harg5 arg6 harg6 x0 x1 x2)]
  unfold kernelRun0_A
  dsimp only
  sl_unfold_words
  rw [View.canon_unit_zero zeros3]
  simp only [View.readCov_cons_unit_zero (S := S64x256) _ zeros2, View.readAt_eq_ld, harg2.read_unread, harg3.read_unread,
    harg4.read_unread, View.ld_unit_zero (S := S1x256x512) zeros3]
  rfl

end Cert.KernelIdeal.Piece

end
-- ==== Proof.Spec.lean ====
/-
  The function both programs compute: L1-distance attention, one query row at a time.

  Fix a batch entry. A query row `q` (512 numbers) is compared with each of the 256 key rows `k j` by the L1 distance
  `dist q (k j) = ∑_d |q d − k j d|`; the scores are the negated distances; the weights are
  `exp (score j − m)` with `m` the largest score of the row (taken as a running maximum that starts from −∞, and
  then once more against −∞, exactly as both programs do); the attention probabilities are the weights divided by
  their sum over the row; the result at column `d` is `∑_j probability j · v j d` over the 256 value rows.
  All of this is over the extended reals, each operation the exact one, with `|x| = max x (−x)`.

  The two programs differ in one arrangement only: the reference sums the 512 absolute differences at once, the
  kernel in four chunks of 128 consecutive columns added one after the other to a total that starts at zero.
  `dist_chunks` says these agree. It uses only that addition is commutative and associative with neutral element
  zero, which holds on the extended reals with no finiteness assumption, so nothing here needs the inputs finite.
-/
import Idealize.ShloMosaic.PureOps.Ideal.Laws
import Idealize.ShloMosaic.Lib.ValueIdx

noncomputable section

namespace Cert.L1Attention

open Idealize.ShloMosaic Idealize.ShloMosaic.ValueIdx

/-- The absolute value on the extended reals as both programs compute it: the larger of `x` and `−x`. -/
def absE (x : EReal) : EReal := max x (-x)

/-- The float pattern of −∞, from which both programs start a row's running maximum. It is never evaluated: the
    same word stands on both sides. -/
abbrev negInf : EReal := Ideal.ofBits .f32 0xFF800000#32

/-- The L1 distance between a query row and a key row. -/
def dist (q kj : Fin 512 → EReal) : EReal := ∑ d : Fin 512, absE (q d - kj d)

/-- The largest score of a query row against all key rows: the running maximum from −∞ over the negated
    distances, then once more against −∞. -/
def rowMax (q : Fin 512 → EReal) (k : Fin 256 → Fin 512 → EReal) : EReal :=
  max negInf ((Finset.univ : Finset (Fin 256)).fold max negInf fun j => -dist q (k j))

/-- The unnormalised weight of key row `j` for query row `q`. -/
def weight (q : Fin 512 → EReal) (k : Fin 256 → Fin 512 → EReal) (j : Fin 256) : EReal :=
  Ideal.exp (-dist q (k j) - rowMax q k)

/-- Attention for one query row, at output column `d`: the probability-weighted sum of the value rows. -/
def rowAttn (q : Fin 512 → EReal) (k v : Fin 256 → Fin 512 → EReal) (d : Fin 512) : EReal :=
  ∑ j : Fin 256, Ideal.div (weight q k j) (∑ j' : Fin 256, weight q k j') * v j d

/-- An array of shape 8 × 256 × 512 of extended reals. -/
abbrev Arr : Type := (⟨3, ![8, 256, 512]⟩ : Shape).Idx → EReal

/-- The whole result: entry (b, i, d) is the attention of query row (b, i) against the key and value rows of the
    same batch entry `b`. -/
def attention (Q K V : Arr) : Arr := fun x =>
  rowAttn (fun d => Q (ix3 (n0 := 8) (n1 := 256) (n2 := 512) (x 0) (x 1) d))
    (fun j d => K (ix3 (n0 := 8) (n1 := 256) (n2 := 512) (x 0) j d))
    (fun j d => V (ix3 (n0 := 8) (n1 := 256) (n2 := 512) (x 0) j d)) (x 2)

theorem attention_ix3 (Q K V : Arr) (b : Fin 8) (i : Fin 256) (d : Fin 512) :
    attention Q K V (ix3 b i d) = rowAttn (fun d => Q (ix3 b i d)) (fun j d => K (ix3 b j d)) (fun j d => V (ix3 b j d)) d :=
  rfl

/-! ## Summing 512 terms at once, or in four chunks of 128 -/

/-- Column `o + l` of 512, for a chunk starting at `o` and `l < 128`. -/
def col (o : Nat) (ho : o + 128 ≤ 512) (l : Fin 128) : Fin 512 := ⟨o + l.val, by have := l.isLt; omega⟩

/-- In any commutative monoid a sum over 512 indices is the sum of the four sums over the chunks of 128 consecutive
    indices starting at 0, 128, 256 and 384: index `128 m + l` is re-read as the pair (chunk `m`, offset `l`). -/
theorem sum_four_chunks {M : Type*} [AddCommMonoid M] (f : Fin 512 → M) :
    ∑ d : Fin 512, f d
      = (∑ l : Fin 128, f (col 0 (by omega) l)) + (∑ l : Fin 128, f (col 128 (by omega) l))
        + (∑ l : Fin 128, f (col 256 (by omega) l)) + (∑ l : Fin 128, f (col 384 (by omega) l)) := by
  rw [← Equiv.sum_comp (finProdFinEquiv : Fin 4 × Fin 128 ≃ Fin 512) f, Fintype.sum_prod_type, Fin.sum_univ_four]
  have e : ∀ (m : Fin 4) (o : Nat) (ho : o + 128 ≤ 512), o = 128 * m.val →
      (∑ l : Fin 128, f ((finProdFinEquiv : Fin 4 × Fin 128 ≃ Fin 512) (m, l))) = ∑ l : Fin 128, f (col o ho l) := by
    intro m o ho hm
    refine Finset.sum_congr rfl fun l _ => congrArg f (Fin.ext ?_)
    show l.val + 128 * m.val = o + l.val
    omega
  rw [e 0 0 (by omega) rfl, e 1 128 (by omega) rfl, e 2 256 (by omega) rfl, e 3 384 (by omega) rfl]

/-- The L1 distance as the kernel accumulates it: a total that starts at zero and receives the four chunk sums in
    order. -/
theorem dist_chunks (q kj : Fin 512 → EReal) :
    dist q kj
      = (((0 + ∑ l : Fin 128, absE (q (col 0 (by omega) l) - kj (col 0 (by omega) l)))
          + ∑ l : Fin 128, absE (q (col 128 (by omega) l) - kj (col 128 (by omega) l)))
          + ∑ l : Fin 128, absE (q (col 256 (by omega) l) - kj (col 256 (by omega) l)))
          + ∑ l : Fin 128, absE (q (col 384 (by omega) l) - kj (col 384 (by omega) l)) := by
  unfold dist
  rw [sum_four_chunks (fun d => absE (q d - kj d))]
  simp only [zero_add]

end Cert.L1Attention

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.BlockDist.lean ====
/-
  The kernel's scratch after the four accumulations holds the L1 distances of the block's rows.

  Read at row `r` of the query block and key row `j`, one accumulation stage adds to the running total the sum, over
  the 128 columns of its chunk, of |query entry − key entry|: the query chunk is laid out along a new key axis and the
  key chunk along a new query axis (so entry (r, j, l) of the two is query (r, l) and key (j, l)), they are subtracted,
  the absolute value is taken and the last axis is summed. A chunk starting at column `o` is read from the block at
  columns `o + l`. The cleared scratch is zero. So the total after the four stages is
  `(((0 + S₀) + S₁₂₈) + S₂₅₆) + S₃₈₄`, which is the distance over all 512 columns (`dist_chunks`).
-/
import proofs.«170743_j39024072852184_1_alg».proof.Proof.Piece
import proofs.«170743_j39024072852184_1_alg».proof.Proof.Spec
import proofs.«170743_j39024072852184_1_alg».proof.Proof.LibLayout
import Idealize.ShloMosaic.PureOps.Ideal.Laws
import Idealize.ShloMosaic.Lib.ValueIdx
import Idealize.ShloMosaic.Lib.ValueLayout

noncomputable section

namespace Cert.KernelIdeal.BlockDist

open Cert.KernelIdeal Cert.KernelIdeal.Gen Cert.KernelIdeal.Piece Cert.L1Attention Cert.LibLayout
open Idealize.ShloMosaic Idealize.ShloMosaic.ValueIdx

/-! ## Reading a chunk of a block -/

/-- The query chunk starting at column `o`, at row `r` and offset `l`, is the query block at column `o + l`. -/
theorem queryChunk_apply (x0 : FVec Ideal S1x64x512 .f32) (o : Nat) (ho : o + 128 ≤ 512)
    (inb : ∀ a, (![0, 0, o] : Fin 3 → Nat) a + S1x64x128.size a ≤ S1x64x512.size a) (r : Fin 64) (l : Fin 128) :
    View.ld (Val := Elt Ideal) (e' := .f32) x0 (Rect.unit (s := S1x64x512) ![0, 0, o] S1x64x128.size inb) (ix3 (0 : Fin 1) r l)
      = x0 (ix3 (0 : Fin 1) r (col o ho l)) := by
  refine congrArg x0 (funext fun a => Fin.ext ?_)
  match a with
  | ⟨0, _⟩ => show 0 + 1 * 0 = 0; omega
  | ⟨1, _⟩ => show 0 + 1 * r.val = r.val; omega
  | ⟨2, _⟩ => show o + 1 * l.val = o + l.val; omega

/-- The key chunk starting at column `o`, at key row `j` and offset `l`, is the key slab at column `o + l`. -/
theorem keyChunk_apply (x1 : FVec Ideal S1x256x512 .f32) (o : Nat) (ho : o + 128 ≤ 512)
    (inb : ∀ a, (![0, 0, o] : Fin 3 → Nat) a + S1x256x128.size a ≤ S1x256x512.size a) (j : Fin 256) (l : Fin 128) :
    View.ld (Val := Elt Ideal) (e' := .f32) x1 (Rect.unit (s := S1x256x512) ![0, 0, o] S1x256x128.size inb) (ix3 (0 : Fin 1) j l)
      = x1 (ix3 (0 : Fin 1) j (col o ho l)) := by
  refine congrArg x1 (funext fun a => Fin.ext ?_)
  match a with
  | ⟨0, _⟩ => show 0 + 1 * 0 = 0; omega
  | ⟨1, _⟩ => show 0 + 1 * j.val = j.val; omega
  | ⟨2, _⟩ => show o + 1 * l.val = o + l.val; omega

/-! ## One accumulation stage at an index -/

/-- The query chunk laid out along the key axis: entry (r, j, l) is the chunk's (r, l). -/
theorem queryBroadcast_apply (qc : FVec Ideal S1x64x128 .f32) (r : Fin 64) (j : Fin 256) (l : Fin 128) :
    (broadcastTo S64x256x128 (shapeCast S64x1x128 (shapeCast S64x128 qc shapeCasts_S1x64x128_S64x128) shapeCasts_S64x128_S64x1x128) broadcasts_S64x1x128_S64x256x128) (ix3 r j l) = qc (ix3 (0 : Fin 1) r l) := by
  rw [broadcastTo_a1c_abc_apply, shapeCast_ac_a1c_apply, shapeCast_1ab_ab_apply]

/-- The key chunk laid out along the query axis: entry (r, j, l) is the chunk's (j, l). -/
theorem keyBroadcast_apply (kc : FVec Ideal S1x256x128 .f32) (r : Fin 64) (j : Fin 256) (l : Fin 128) :
    (broadcastTo S64x256x128 (shapeCast S1x256x128 (shapeCast S256x128 kc shapeCasts_S1x256x128_S256x128) shapeCasts_S256x128_S1x256x128) broadcasts_S1x256x128_S64x256x128) (ix3 r j l) = kc (ix3 (0 : Fin 1) j l) := by
  rw [broadcastTo_1bc_abc_apply, shapeCast_shapeCast]

/-- The reduced index (r, j) with column offset `l` put back is (r, j, l). -/
theorem lift_offset (h : S64x256x128.Reduces [2] S64x256) (r : Fin 64) (j : Fin 256) (l : Fin (S64x256x128.size 2)) :
    h.lift (ix2 r j) l = ix3 r j (⟨l.val, l.isLt⟩ : Fin 128) := by
  funext c; apply Fin.ext
  fin_cases c <;> rfl

/-- One stage: the running total plus the chunk's sum of absolute differences between query row `r` and key row `j`. -/
theorem stage_apply (qc : FVec Ideal S1x64x128 .f32) (kc : FVec Ideal S1x256x128 .f32) (acc : FVec Ideal S64x256 .f32)
    (hφ : FKind.Formats .f32) (hacc : (0x00000000#32 : BitVec 32) = FKind.add.neutral .f32 hφ) (r : Fin 64) (j : Fin 256) :
    addf acc (multiReduction .add [2] S64x256 (absf (subf (broadcastTo S64x256x128 (shapeCast S64x1x128 (shapeCast S64x128 qc shapeCasts_S1x64x128_S64x128) shapeCasts_S64x128_S64x1x128) broadcasts_S64x1x128_S64x256x128) (broadcastTo S64x256x128 (shapeCast S1x256x128 (shapeCast S256x128 kc shapeCasts_S1x256x128_S256x128) shapeCasts_S256x128_S1x256x128) broadcasts_S1x256x128_S64x256x128))) 0x00000000#32 reduces_S64x256x128_S64x256 hφ hacc) (ix2 r j)
      = acc (ix2 r j) + ∑ l : Fin 128, absE (qc (ix3 (0 : Fin 1) r l) - kc (ix3 (0 : Fin 1) j l)) := by
  refine congrArg (acc (ix2 r j) + ·)
    ((Ideal.multiReduction_add_single _ _ reduces_S64x256x128_S64x256 hφ hacc (ix2 r j)).trans
      (Finset.sum_congr rfl fun l _ => ?_))
  rw [lift_offset]
  show absE ((broadcastTo S64x256x128 (shapeCast S64x1x128 (shapeCast S64x128 qc shapeCasts_S1x64x128_S64x128) shapeCasts_S64x128_S64x1x128) broadcasts_S64x1x128_S64x256x128) (ix3 r j (⟨l.val, l.isLt⟩ : Fin 128)) - (broadcastTo S64x256x128 (shapeCast S1x256x128 (shapeCast S256x128 kc shapeCasts_S1x256x128_S256x128) shapeCasts_S256x128_S1x256x128) broadcasts_S1x256x128_S64x256x128) (ix3 r j (⟨l.val, l.isLt⟩ : Fin 128))) = _
  rw [queryBroadcast_apply, keyBroadcast_apply]
  rfl

theorem pay4_apply (qc : FVec Ideal S1x64x128 .f32) (kc : FVec Ideal S1x256x128 .f32) (acc : FVec Ideal S64x256 .f32)
    (r : Fin 64) (j : Fin 256) :
    k0_pay4 (F := Ideal) qc kc acc (ix2 r j)
      = acc (ix2 r j) + ∑ l : Fin 128, absE (qc (ix3 (0 : Fin 1) r l) - kc (ix3 (0 : Fin 1) j l)) := by
  unfold k0_pay4
  dsimp only
  rw [shapeCast_self]
  exact stage_apply qc kc acc _ _ r j

theorem pay5_apply (qc : FVec Ideal S1x64x128 .f32) (kc : FVec Ideal S1x256x128 .f32) (acc : FVec Ideal S64x256 .f32)
    (r : Fin 64) (j : Fin 256) :
    k0_pay5 (F := Ideal) qc kc acc (ix2 r j)
      = acc (ix2 r j) + ∑ l : Fin 128, absE (qc (ix3 (0 : Fin 1) r l) - kc (ix3 (0 : Fin 1) j l)) := by
  unfold k0_pay5
  dsimp only
  exact stage_apply qc kc acc _ _ r j

theorem pay7_apply (qc : FVec Ideal S1x64x128 .f32) (kc : FVec Ideal S1x256x128 .f32) (acc : FVec Ideal S64x256 .f32)
    (r : Fin 64) (j : Fin 256) :
    k0_pay7 (F := Ideal) qc kc acc (ix2 r j)
      = acc (ix2 r j) + ∑ l : Fin 128, absE (qc (ix3 (0 : Fin 1) r l) - kc (ix3 (0 : Fin 1) j l)) := by
  unfold k0_pay7
  dsimp only
  rw [shapeCast_self]
  exact stage_apply qc kc acc _ _ r j

theorem pay8_apply (qc : FVec Ideal S1x64x128 .f32) (kc : FVec Ideal S1x256x128 .f32) (acc : FVec Ideal S64x256 .f32)
    (r : Fin 64) (j : Fin 256) :
    k0_pay8 (F := Ideal) qc kc acc (ix2 r j)
      = acc (ix2 r j) + ∑ l : Fin 128, absE (qc (ix3 (0 : Fin 1) r l) - kc (ix3 (0 : Fin 1) j l)) := by
  unfold k0_pay8
  dsimp only
  exact stage_apply qc kc acc _ _ r j

/-- The cleared scratch is zero everywhere. -/
theorem pay3_apply (r : Fin 64) (j : Fin 256) : k0_pay3 (F := Ideal) (ix2 r j) = 0 := by
  unfold k0_pay3
  rw [shapeCast_self]
  exact Ideal.ofBits_zero_f32

/-- The two stages that only pass a value on (a cast of a 64 × 256 array to its own shape). -/
theorem pay1_eq (v : FVec Ideal S64x256 .f32) : k0_pay1 (F := Ideal) v = v := by
  unfold k0_pay1
  dsimp only
  rw [shapeCast_self]

theorem pay6_eq (v : FVec Ideal S64x256 .f32) : k0_pay6 (F := Ideal) v = v := by
  unfold k0_pay6
  dsimp only
  rw [shapeCast_self]

/-! ## The four stages together -/

/-- The scratch after the four accumulations, at (r, j): the L1 distance over all 512 columns between row `r` of the
    query block and row `j` of the key slab. -/
theorem distances_apply (x0 : FVec Ideal S1x64x512 .f32) (x1 : FVec Ideal S1x256x512 .f32) (r : Fin 64) (j : Fin 256) :
    distances (F := Ideal) x0 x1 (ix2 r j)
      = dist (fun d => x0 (ix3 (0 : Fin 1) r d)) (fun d => x1 (ix3 (0 : Fin 1) j d)) := by
  unfold distances
  rw [pay1_eq, pay8_apply, pay7_apply, pay6_eq, pay5_apply, pay4_apply, pay3_apply]
  simp only [queryChunk_apply x0 0 (by omega), queryChunk_apply x0 128 (by omega), queryChunk_apply x0 256 (by omega),
    queryChunk_apply x0 384 (by omega), keyChunk_apply x1 0 (by omega), keyChunk_apply x1 128 (by omega),
    keyChunk_apply x1 256 (by omega), keyChunk_apply x1 384 (by omega)]
  exact (dist_chunks (fun d => x0 (ix3 (0 : Fin 1) r d)) (fun d => x1 (ix3 (0 : Fin 1) j d))).symm

end Cert.KernelIdeal.BlockDist

end
-- ==== Proof.BlockAttn.lean ====
/-
  The kernel's final stage at an index: from the distances in the scratch to the output block.

  Given the 64 × 256 scratch `D` (row `r`, key `j`) and the value slab `x2`, the final stage negates `D` (as zero minus
  `D`), takes each row's maximum as a running maximum from −∞ and once more against −∞, subtracts it along the row (the
  maximum, a vector over rows, is made a column and repeated along the row), exponentiates, sums each row, divides by
  the row sum (again a column repeated along the row), and multiplies the 64 × 256 result by the 256 × 512 value slab
  into a zero accumulator. The two changes of float format before the product are the identity on extended reals.
  Read at row `r` and column `d` of the output block this is `attnOfDist` below applied to row `r` of `D`.
  With `D` the L1 distances (`BlockDist.distances_apply`) it is `rowAttn` of the block's rows.
-/
import proofs.«170743_j39024072852184_1_alg».proof.Proof.BlockDist
import proofs.«170743_j39024072852184_1_alg».proof.Proof.Spec
import proofs.«170743_j39024072852184_1_alg».proof.Proof.LibLayout
import Idealize.ShloMosaic.PureOps.Ideal.Laws
import Idealize.ShloMosaic.Lib.ValueIdx
import Idealize.ShloMosaic.Lib.ValueLayout

noncomputable section

namespace Cert.KernelIdeal.BlockAttn

open Cert.KernelIdeal Cert.KernelIdeal.Gen Cert.KernelIdeal.Piece Cert.L1Attention Cert.LibLayout
open Idealize.ShloMosaic Idealize.ShloMosaic.ValueIdx

/-- Attention for one query row from its 256 distances `δ`: weights `exp (−δ j − m)` with `m` the row maximum of the
    negated distances (from −∞, then once more against −∞), normalised by their sum, applied to the value rows. -/
def attnOfDist (δ : Fin 256 → EReal) (v : Fin 256 → Fin 512 → EReal) (d : Fin 512) : EReal :=
  ∑ j : Fin 256,
    Ideal.div (Ideal.exp (-δ j - max negInf ((Finset.univ : Finset (Fin 256)).fold max negInf fun j' => -δ j')))
      (∑ j'' : Fin 256, Ideal.exp (-δ j'' - max negInf ((Finset.univ : Finset (Fin 256)).fold max negInf fun j' => -δ j')))
      * v j d

/-- With the L1 distances for `δ` this is the specification's row attention. -/
theorem rowAttn_eq (q : Fin 512 → EReal) (k v : Fin 256 → Fin 512 → EReal) (d : Fin 512) :
    rowAttn q k v d = attnOfDist (fun j => dist q (k j)) v d := rfl

/-! ## The pieces of the stage, each over a variable vector -/

/-- Zero minus the scratch is its negation. -/
theorem neg_apply (D : FVec Ideal S64x256 .f32) (r : Fin 64) (j : Fin 256) :
    subf (broadcast S64x256 (Scalar.ofBits (F := Ideal) .f32 0x00000000#32)) D (ix2 r j) = -(D (ix2 r j)) := by
  show Ideal.ofBits .f32 0x00000000#32 - D (ix2 r j) = _
  rw [Ideal.ofBits_zero_f32, zero_sub]

/-- The reduced index `r` with key coordinate `j` put back is (r, j). -/
theorem lift_key (h : S64x256.Reduces [1] S64) (r : Fin 64) (j : Fin (S64x256.size 1)) :
    h.lift (ix1 r) j = ix2 r (⟨j.val, j.isLt⟩ : Fin 256) := by
  funext c; apply Fin.ext
  fin_cases c <;> rfl

/-- A vector over rows made a column and repeated along the row reads, at (r, j), the vector at `r`. -/
theorem column_apply (s : FVec Ideal S64 .f32) (r : Fin 64) (j : Fin 256) :
    (broadcastTo S64x256 (shapeCast S64x1 s shapeCasts_S64_S64x1) broadcasts_S64x1_S64x256) (ix2 r j) = s (ix1 r) := by
  rw [broadcastTo_a1_ab_apply, shapeCast_a_a1_apply]

/-- The row maximum at `r`: the running maximum from −∞ over the row, then once more against −∞. -/
theorem rowMaxVec_apply (N : FVec Ideal S64x256 .f32) (hφ : FKind.Formats .f32)
    (hacc : (0xFF800000#32 : BitVec 32) = FKind.maximumf.neutral .f32 hφ) (r : Fin 64) :
    (maximumf (broadcast S64 (Scalar.ofBits (F := Ideal) .f32 0xFF800000#32)) (multiReduction .maximumf [1] S64 N 0xFF800000#32 reduces_S64x256_S64 hφ hacc)) (ix1 r)
      = max negInf ((Finset.univ : Finset (Fin 256)).fold max negInf fun j => N (ix2 r j)) := by
  have hf : (N ∘ reduces_S64x256_S64.lift (ix1 r)) = fun j : Fin 256 => N (ix2 r j) :=
    funext fun j => by
      show N (reduces_S64x256_S64.lift (ix1 r) j) = _
      rw [lift_key]
      rfl
  exact congrArg (max negInf)
    ((Ideal.multiReduction_maximumf_single N _ reduces_S64x256_S64 hφ hacc (ix1 r)).trans
      (congrArg (fun f => Finset.fold max negInf f (Finset.univ : Finset (Fin 256))) hf))

/-- The row sum at `r`. -/
theorem rowSumVec_apply (E : FVec Ideal S64x256 .f32) (hφ : FKind.Formats .f32)
    (hacc : (0x00000000#32 : BitVec 32) = FKind.add.neutral .f32 hφ) (r : Fin 64) :
    (multiReduction .add [1] S64 E 0x00000000#32 reduces_S64x256_S64 hφ hacc) (ix1 r) = ∑ j : Fin 256, E (ix2 r j) :=
  (Ideal.multiReduction_add_single E _ reduces_S64x256_S64 hφ hacc (ix1 r)).trans
    (Finset.sum_congr rfl fun j _ => by
      show E (reduces_S64x256_S64.lift (ix1 r) j) = _
      rw [lift_key]
      rfl)

/-- The weights at (r, j): the exponential of the entry minus the row maximum. -/
theorem weights_apply (N : FVec Ideal S64x256 .f32) (hφ : FKind.Formats .f32)
    (hacc : (0xFF800000#32 : BitVec 32) = FKind.maximumf.neutral .f32 hφ) (r : Fin 64) (j : Fin 256) :
    exp (subf N (broadcastTo S64x256 (shapeCast S64x1 (maximumf (broadcast S64 (Scalar.ofBits (F := Ideal) .f32 0xFF800000#32)) (multiReduction .maximumf [1] S64 N 0xFF800000#32 reduces_S64x256_S64 hφ hacc)) shapeCasts_S64_S64x1) broadcasts_S64x1_S64x256)) (ix2 r j)
      = Ideal.exp (N (ix2 r j) - max negInf ((Finset.univ : Finset (Fin 256)).fold max negInf fun j' => N (ix2 r j'))) := by
  show Ideal.exp (N (ix2 r j) - (broadcastTo S64x256 (shapeCast S64x1 (maximumf (broadcast S64 (Scalar.ofBits (F := Ideal) .f32 0xFF800000#32)) (multiReduction .maximumf [1] S64 N 0xFF800000#32 reduces_S64x256_S64 hφ hacc)) shapeCasts_S64_S64x1) broadcasts_S64x1_S64x256) (ix2 r j)) = _
  rw [column_apply, rowMaxVec_apply]

/-- The probabilities at (r, k): the entry over its row sum; the change of float format is the identity. -/
theorem probs_apply (E : FVec Ideal S64x256 .f32) (hφ : FKind.Formats .f32)
    (hacc : (0x00000000#32 : BitVec 32) = FKind.add.neutral .f32 hφ) (r : Fin 64) (k : Fin 256) :
    (truncf .bf16 (divf E (broadcastTo S64x256 (shapeCast S64x1 (multiReduction .add [1] S64 E 0x00000000#32 reduces_S64x256_S64 hφ hacc) shapeCasts_S64_S64x1) broadcasts_S64x1_S64x256)) bitsLt_bf16_f32 : FVec Ideal S64x256 .bf16) (ix2 r k)
      = Ideal.div (E (ix2 r k)) (∑ j : Fin 256, E (ix2 r j)) := by
  show Ideal.div (E (ix2 r k)) ((broadcastTo S64x256 (shapeCast S64x1 (multiReduction .add [1] S64 E 0x00000000#32 reduces_S64x256_S64 hφ hacc) shapeCasts_S64_S64x1) broadcasts_S64x1_S64x256) (ix2 r k)) = _
  rw [column_apply, rowSumVec_apply]

/-- The value slab as a 256 × 512 matrix, at (k, d); the change of float format is the identity. -/
theorem values_apply (x2 : FVec Ideal S1x256x512 .f32) (k : Fin 256) (d : Fin 512) :
    (truncf .bf16 (shapeCast S256x512 x2 shapeCasts_S1x256x512_S256x512) bitsLt_bf16_f32 : FVec Ideal S256x512 .bf16) (ix2 k d)
      = x2 (ix3 (0 : Fin 1) k d) := by
  show shapeCast S256x512 x2 shapeCasts_S1x256x512_S256x512 (ix2 k d) = _
  rw [shapeCast_1ab_ab_apply]

/-! ## The matrix product at an index -/

theorem lhs_row (i : S64x512.Idx) (q : dot_S64x256_S256x512_S64x512_1_0_0_1_n_n.contr.Idx) : (dot_S64x256_S256x512_S64x512_1_0_0_1_n_n.lhsIdx i q 0).val = (i 0).val := by
  unfold DotDims.lhsIdx
  rw [dif_neg (show ¬(0 : Fin S64x256.rank) ∈ dot_S64x256_S256x512_S64x512_1_0_0_1_n_n.lhsBatch by decide),
    dif_pos (show (0 : Fin S64x256.rank) ∈ dot_S64x256_S256x512_S64x512_1_0_0_1_n_n.lhsNonContracting by decide)]
  rfl

theorem lhs_key (i : S64x512.Idx) (q : dot_S64x256_S256x512_S64x512_1_0_0_1_n_n.contr.Idx) : (dot_S64x256_S256x512_S64x512_1_0_0_1_n_n.lhsIdx i q 1).val = (q ⟨0, by decide⟩).val :=
  dot_S64x256_S256x512_S64x512_1_0_0_1_n_n.lhsIdx_val_of_single rfl i q

theorem rhs_key (i : S64x512.Idx) (q : dot_S64x256_S256x512_S64x512_1_0_0_1_n_n.contr.Idx) : (dot_S64x256_S256x512_S64x512_1_0_0_1_n_n.rhsIdx i q 0).val = (q ⟨0, by decide⟩).val :=
  dot_S64x256_S256x512_S64x512_1_0_0_1_n_n.rhsIdx_val_of_single rfl i q

theorem rhs_col (i : S64x512.Idx) (q : dot_S64x256_S256x512_S64x512_1_0_0_1_n_n.contr.Idx) : (dot_S64x256_S256x512_S64x512_1_0_0_1_n_n.rhsIdx i q 1).val = (i 1).val := by
  unfold DotDims.rhsIdx
  rw [dif_neg (show ¬(1 : Fin S256x512.rank) ∈ dot_S64x256_S256x512_S64x512_1_0_0_1_n_n.rhsBatch by decide),
    dif_pos (show (1 : Fin S256x512.rank) ∈ dot_S64x256_S256x512_S64x512_1_0_0_1_n_n.rhsNonContracting by decide)]
  rfl

/-- The 64 × 256 by 256 × 512 product into a zero accumulator, at (r, d): the sum over the 256 keys. -/
theorem matmul_rows (P : FVec Ideal S64x256 .bf16) (W : FVec Ideal S256x512 .bf16) (r : Fin 64) (d : Fin 512) :
    matmul dot_S64x256_S256x512_S64x512_1_0_0_1_n_n none P W (constant S64x512 .f32 0x00000000#32) (ix2 r d) = ∑ k : Fin 256, P (ix2 r k) * W (ix2 k d) := by
  refine (Ideal.matmul_constant_zero_apply dot_S64x256_S256x512_S64x512_1_0_0_1_n_n none P W (ix2 r d)).trans ?_
  rw [← Equiv.sum_comp (ValueIdx.contrEquiv1 dot_S64x256_S256x512_S64x512_1_0_0_1_n_n 256 rfl rfl).symm]
  refine Finset.sum_congr rfl fun k _ => ?_
  have hk := ValueIdx.contrEquiv1_symm_val dot_S64x256_S256x512_S64x512_1_0_0_1_n_n 256 rfl rfl k
  have el : dot_S64x256_S256x512_S64x512_1_0_0_1_n_n.lhsIdx (ix2 r d) ((ValueIdx.contrEquiv1 dot_S64x256_S256x512_S64x512_1_0_0_1_n_n 256 rfl rfl).symm k) = ix2 r k :=
    funext fun a => Fin.ext (by
      match a with
      | ⟨0, _⟩ => exact lhs_row _ _
      | ⟨1, _⟩ => exact (lhs_key _ _).trans hk)
  have er : dot_S64x256_S256x512_S64x512_1_0_0_1_n_n.rhsIdx (ix2 r d) ((ValueIdx.contrEquiv1 dot_S64x256_S256x512_S64x512_1_0_0_1_n_n 256 rfl rfl).symm k) = ix2 k d :=
    funext fun a => Fin.ext (by
      match a with
      | ⟨0, _⟩ => exact (rhs_key _ _).trans hk
      | ⟨1, _⟩ => exact rhs_col _ _)
  rw [el, er]

/-! ## The stage -/

/-- The final stage at row `r`, column `d` of the output block. -/
theorem final_apply (D : FVec Ideal S64x256 .f32) (x2 : FVec Ideal S1x256x512 .f32) (r : Fin 64) (d : Fin 512) :
    k0_pay2 (F := Ideal) D x2 (ix3 (0 : Fin 1) r d)
      = attnOfDist (fun j => D (ix2 r j)) (fun j d => x2 (ix3 (0 : Fin 1) j d)) d := by
  unfold k0_pay2
  dsimp only
  refine (shapeCast_ab_1ab_apply _ _ (0 : Fin 1) r d).trans ?_
  refine (matmul_rows _ _ r d).trans ?_
  unfold attnOfDist
  refine Finset.sum_congr rfl fun k _ => ?_
  refine congrArg₂ (· * ·) ((probs_apply _ _ _ r k).trans ?_) (values_apply x2 k d)
  refine congrArg₂ Ideal.div ((weights_apply _ _ _ r k).trans ?_)
    (Finset.sum_congr rfl fun j _ => (weights_apply _ _ _ r j).trans ?_)
  · simp only [neg_apply]
  · simp only [neg_apply]

/-- The output block of a grid point, at row `r` and column `d`: the attention of row `r` of the query block against
    the rows of the key slab and the value slab. -/
theorem block_apply (x0 : FVec Ideal S1x64x512 .f32) (x1 x2 : FVec Ideal S1x256x512 .f32) (r : Fin 64) (d : Fin 512) :
    k0_pay2 (F := Ideal) (distances (F := Ideal) x0 x1) x2 (ix3 (0 : Fin 1) r d)
      = rowAttn (fun d => x0 (ix3 (0 : Fin 1) r d)) (fun j d => x1 (ix3 (0 : Fin 1) j d))
          (fun j d => x2 (ix3 (0 : Fin 1) j d)) d := by
  rw [final_apply, rowAttn_eq]
  simp only [BlockDist.distances_apply]

end Cert.KernelIdeal.BlockAttn

end
-- ==== Proof.Whole.lean ====
/-
  From what each grid point writes back to the whole result array.

  The grid has 8 × 4 points (batch entry `b`, query tile `i`). At point (b, i) the query window and the output window
  sit at block (b, i) of their arrays (rows 64 i … 64 i + 63 of batch entry b, all 512 columns), and the key and value
  windows at block b (all 256 rows of batch entry b). So row `r` of the query block is query row (b, 64 i + r), row `j`
  of the key and value slabs is row (b, j), and entry (0, r, d) of the output block lands at (b, 64 i + r, d). By
  `BlockAttn.block_apply` the written block is therefore exactly the block of `attention Q K V` at that place. The
  32 output blocks tile the array (index (b, n, d) lies in the block of point (b, n / 64)), every point writes back,
  so after the run the result array is `attention Q K V` of the argument arrays.
-/
import proofs.«170743_j39024072852184_1_alg».proof.Proof.Gen.KernelIdeal.Value
import proofs.«170743_j39024072852184_1_alg».proof.Proof.Piece
import proofs.«170743_j39024072852184_1_alg».proof.Proof.BlockAttn
import proofs.«170743_j39024072852184_1_alg».proof.Proof.Spec
import Idealize.ShloMosaic.Lib.Pipeline.Value
import Idealize.ShloMosaic.Lib.ValueIdx

noncomputable section

namespace Cert.KernelIdeal.Whole

open Cert.KernelIdeal Cert.KernelIdeal.Gen Cert.KernelIdeal.Value Cert.KernelIdeal.Piece Cert.L1Attention
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array: the attention function of the three argument arrays as launched. -/
def result (c : Dev nD) : Buf (Elt Ideal) ((c : Thread nD τ).loc main_v0) :=
  attention (m ((c : Thread nD τ).loc main_arg0)) (m ((c : Thread nD τ).loc main_arg1)) (m ((c : Thread nD τ).loc main_arg2))

/-- The output block at any index of the block (the leading coordinate of a 1 × 64 × 512 block is 0). -/
theorem block_apply_idx (x0 : FVec Ideal S1x64x512 .f32) (x1 x2 : FVec Ideal S1x256x512 .f32) (y : S1x64x512.Idx) :
    k0_pay2 (F := Ideal) (distances (F := Ideal) x0 x1) x2 y
      = rowAttn (fun d => x0 (ix3 (0 : Fin 1) (y 1) d)) (fun j d => x1 (ix3 (0 : Fin 1) j d))
          (fun j d => x2 (ix3 (0 : Fin 1) j d)) (y 2) := by
  obtain ⟨u, r, d, rfl⟩ : ∃ (u : Fin 1) (r : Fin 64) (d : Fin 512), y = ix3 u r d := ⟨y 0, y 1, y 2, eq_ix3 y⟩
  obtain rfl : u = 0 := Subsingleton.elim _ _
  exact BlockAttn.block_apply x0 x1 x2 r d

/-- The printed index maps, decided once over the 32 grid points: the query window moves with the output window; the
    key and value windows follow its batch coordinate only; the output's block indices stay in range. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 7 ∧ win0_3.index t (1 : Fin 3) ≤ 3 ∧ win0_3.index t (2 : Fin 3) = 0 :=
  (by decide +kernel : ∀ t : Fin grid0.N, _)

/-- Every (batch entry, query tile) is some grid point's output block. -/
theorem idx_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- Row `r` of the query block at point `t` is the query row at the output block's place. -/
theorem query_block (c : Dev nD) (t : Fin cfg0.N) (r : Fin 64) (d : Fin 512) (i : S8x256x512.Idx)
    (h0 : (i 0).val = win0_3.index t (0 : Fin 3)) (h1 : (i 1).val = win0_3.index t (1 : Fin 3) * 64 + r.val) :
    iblk m c 0 t (ix3 (0 : Fin 1) r d) = (m ((c : Thread nD τ).loc main_arg0)) (ix3 (n0 := 8) (n1 := 256) (n2 := 512) (i 0) (i 1) d) := by
  obtain ⟨e00, e01, e02, -⟩ := idx_facts t
  unfold iblk
  rw [View.read_apply]
  show V m c main_arg0 _ = _
  unfold V
  refine congrArg (m ((c : Thread nD τ).loc main_arg0)) (funext fun a => Fin.ext ?_)
  match a with
  | ⟨0, _⟩ => show win0_0.index t (0 : Fin 3) * 1 + 1 * 0 = (i 0).val; omega
  | ⟨1, _⟩ => show win0_0.index t (1 : Fin 3) * 64 + 1 * r.val = (i 1).val; omega
  | ⟨2, _⟩ => show win0_0.index t (2 : Fin 3) * 512 + 1 * d.val = d.val; omega

/-- Row `j` of the key slab at point `t` is key row `j` of the output block's batch entry. -/
theorem key_block (c : Dev nD) (t : Fin cfg0.N) (j : Fin 256) (d : Fin 512) (i : S8x256x512.Idx)
    (h0 : (i 0).val = win0_3.index t (0 : Fin 3)) :
    iblk m c 1 t (ix3 (0 : Fin 1) j d) = (m ((c : Thread nD τ).loc main_arg1)) (ix3 (n0 := 8) (n1 := 256) (n2 := 512) (i 0) j d) := by
  obtain ⟨-, -, -, e10, e11, e12, -⟩ := idx_facts t
  unfold iblk
  rw [View.read_apply]
  show V m c main_arg1 _ = _
  unfold V
  refine congrArg (m ((c : Thread nD τ).loc main_arg1)) (funext fun a => Fin.ext ?_)
  match a with
  | ⟨0, _⟩ => show win0_1.index t (0 : Fin 3) * 1 + 1 * 0 = (i 0).val; omega
  | ⟨1, _⟩ => show win0_1.index t (1 : Fin 3) * 256 + 1 * j.val = j.val; omega
  | ⟨2, _⟩ => show win0_1.index t (2 : Fin 3) * 512 + 1 * d.val = d.val; omega

/-- Row `j` of the value slab at point `t` is value row `j` of the output block's batch entry. -/
theorem value_block (c : Dev nD) (t : Fin cfg0.N) (j : Fin 256) (d : Fin 512) (i : S8x256x512.Idx)
    (h0 : (i 0).val = win0_3.index t (0 : Fin 3)) :
    iblk m c 2 t (ix3 (0 : Fin 1) j d) = (m ((c : Thread nD τ).loc main_arg2)) (ix3 (n0 := 8) (n1 := 256) (n2 := 512) (i 0) j d) := by
  obtain ⟨-, -, -, -, -, -, e20, e21, e22, -⟩ := idx_facts t
  unfold iblk
  rw [View.read_apply]
  show V m c main_arg2 _ = _
  unfold V
  refine congrArg (m ((c : Thread nD τ).loc main_arg2)) (funext fun a => Fin.ext ?_)
  match a with
  | ⟨0, _⟩ => show win0_2.index t (0 : Fin 3) * 1 + 1 * 0 = (i 0).val; omega
  | ⟨1, _⟩ => show win0_2.index t (1 : Fin 3) * 256 + 1 * j.val = j.val; omega
  | ⟨2, _⟩ => show win0_2.index t (2 : Fin 3) * 512 + 1 * d.val = d.val; omega

/-- What point `t` writes back is block `t` of the result array. -/
theorem flushed_eq (c : Dev nD) (t : Fin cfg0.N) :
    (dats m 0 c).flushed 3 t = ((cfg0.win 3).blk t).view.read (Elt Ideal) (result m c) := by
  rw [flushed3_A, out_eq]
  obtain ⟨-, -, -, -, -, -, -, -, -, -, -, e32⟩ := idx_facts t
  funext y
  rw [View.read_apply]
  show k0_pay2 (F := Ideal) (distances (F := Ideal) (iblk m c 0 t) (iblk m c 1 t)) (iblk m c 2 t) y
    = attention (m ((c : Thread nD τ).loc main_arg0)) (m ((c : Thread nD τ).loc main_arg1)) (m ((c : Thread nD τ).loc main_arg2)) (((cfg0.win 3).blk t).view.emb y)
  refine (block_apply_idx (iblk m c 0 t) (iblk m c 1 t) (iblk m c 2 t) y).trans ?_
  have h0 : ((((cfg0.win 3).blk t).view.emb y) 0).val = win0_3.index t (0 : Fin 3) := by
    have hy : (y 0).val < 1 := (y 0).isLt
    show win0_3.index t (0 : Fin 3) * 1 + 1 * (y 0).val = _; omega
  have h1 : ((((cfg0.win 3).blk t).view.emb y) 1).val = win0_3.index t (1 : Fin 3) * 64 + (y 1).val := by
    show win0_3.index t (1 : Fin 3) * 64 + 1 * (y 1).val = _; omega
  have h2 : ((((cfg0.win 3).blk t).view.emb y) 2).val = (y 2).val := by
    show win0_3.index t (2 : Fin 3) * 512 + 1 * (y 2).val = _; omega
  have hq : (fun d : Fin 512 => iblk m c 0 t (ix3 (0 : Fin 1) (y 1) d))
      = fun d => (m ((c : Thread nD τ).loc main_arg0)) (ix3 (n0 := 8) (n1 := 256) (n2 := 512) ((((cfg0.win 3).blk t).view.emb y) 0) ((((cfg0.win 3).blk t).view.emb y) 1) d) :=
    funext fun d => query_block m c t (y 1) d _ h0 h1
  have hk : (fun (j : Fin 256) (d : Fin 512) => iblk m c 1 t (ix3 (0 : Fin 1) j d))
      = fun j d => (m ((c : Thread nD τ).loc main_arg1)) (ix3 (n0 := 8) (n1 := 256) (n2 := 512) ((((cfg0.win 3).blk t).view.emb y) 0) j d) :=
    funext fun j => funext fun d => key_block m c t j d _ h0
  have hv : (fun (j : Fin 256) (d : Fin 512) => iblk m c 2 t (ix3 (0 : Fin 1) j d))
      = fun j d => (m ((c : Thread nD τ).loc main_arg2)) (ix3 (n0 := 8) (n1 := 256) (n2 := 512) ((((cfg0.win 3).blk t).view.emb y) 0) j d) :=
    funext fun j => funext fun d => value_block m c t j d _ h0
  have hd : (y 2 : Fin 512) = (((cfg0.win 3).blk t).view.emb y) 2 := Fin.ext h2.symm
  unfold attention
  rw [hq, hk, hv, hd]

/-- An index of the array is in point `t`'s output block iff each coordinate is in the block's range on its axis. -/
theorem mem_blk (t : Fin cfg0.N) (i : S8x256x512.Idx) :
    i ∈ ((cfg0.win 3).blk t).view.set ↔ ∀ a : Fin 3, win0_3.index t a * S1x64x512.size a ≤ (i a).val
      ∧ (i a).val < win0_3.index t a * S1x64x512.size a + S1x64x512.size a := by
  show i ∈ ((View.whole main_v0).slice (win0_3.rect t)).set ↔ _
  rw [View.set_slice_whole, Rect.mem_set_unit]
  exact Iff.rfl

/-- Every index of the result array lies in the output block of some grid point, and every point writes back. -/
theorem cover (i : S8x256x512.Idx) : ∃ t : Fin cfg0.N, (cfg0.win 3).flush t = true ∧ i ∈ ((cfg0.win 3).blk t).view.set := by
  have hi0 : (i 0).val < 8 := (i 0).isLt
  have hi1 : (i 1).val < 256 := (i 1).isLt
  have hi2 : (i 2).val < 512 := (i 2).isLt
  obtain ⟨t, ht⟩ := idx_onto ⟨(i 0).val, hi0⟩ ⟨(i 1).val / 64, by omega⟩
  have q0 : win0_3.index t (0 : Fin 3) = (i 0).val := congrFun ht 0
  have q1 : win0_3.index t (1 : Fin 3) = (i 1).val / 64 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 512 ≤ (i 2).val ∧ (i 2).val < win0_3.index t (2 : Fin 3) * 512 + 512; omega

/-- After the run the result array holds the attention function of the argument arrays. -/
theorem final (c : Dev nD) : (dats m 0 c).arrAt 3 cfg0.N = result m c :=
  (dats m 0 c).arrAt_eq_of_cover 3 (result m c) (fun t _ => flushed_eq m c t) cover

/-- The kernel's run: it terminates with the result array at `attention` of the arguments, which are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.RefIsSpec.lean ====
/-
  The reference program computes `Cert.L1Attention.attention`.

  The reference builds, for all (b, i, j, d) at once, the difference of query entry (b, i, d) and key entry (b, j, d)
  (two broadcasts: the query array along a new key axis, the key array along a new query axis), takes absolute
  values, sums over d from zero, negates, takes each row's maximum over j starting from −∞ and once more against −∞,
  subtracts it, exponentiates, sums over j from zero, divides, and contracts the probabilities with the value array
  over j within each batch entry. Read at an index, each step is one line; the only computation is that a broadcast
  reads its operand at the coordinates it keeps. Zero added in front of a sum disappears.
-/
import proofs.«170743_j39024072852184_1_alg».proof.Proof.Gen.ReferenceIdeal.Read
import proofs.«170743_j39024072852184_1_alg».proof.Proof.Spec

noncomputable section

namespace Cert.ReferenceIdeal.RefValue

open Cert.ReferenceIdeal Cert.ReferenceIdeal.Gen Cert.ReferenceIdeal.Read Cert.L1Attention
open Idealize.ShloMosaic Idealize.ShloMosaic.ValueIdx

/-- An argument array of the reference at the ideal instance: 8 × 256 × 512 extended reals. -/
abbrev A3 : Type := (⟨S8x256x512, .f32⟩ : BufTy).Contents (Elt Ideal)

/-! ## Where each layout step reads its operand -/

theorem idx_query (b : Fin 8) (i j : Fin 256) (d : Fin 512) : idx_main_v0 (idx_main_v2 (ix4 b i j d)) = ix3 b i d :=
  funext fun a => Fin.ext (by match a with | ⟨0, _⟩ => rfl | ⟨1, _⟩ => rfl | ⟨2, _⟩ => rfl)

theorem idx_key (b : Fin 8) (i j : Fin 256) (d : Fin 512) : idx_main_v1 (idx_main_v3 (ix4 b i j d)) = ix3 b j d :=
  funext fun a => Fin.ext (by match a with | ⟨0, _⟩ => rfl | ⟨1, _⟩ => rfl | ⟨2, _⟩ => rfl)

theorem idx_column (b : Fin 8) (i j : Fin 256) (d : Fin 512) : idx_main_v6 (ix3 b i j) d = ix4 b i j d :=
  funext fun a => Fin.ext (by match a with | ⟨0, _⟩ => rfl | ⟨1, _⟩ => rfl | ⟨2, _⟩ => rfl | ⟨3, _⟩ => rfl)

theorem idx_rowOfMax (b : Fin 8) (i j : Fin 256) : idx_main_v11 (idx_main_v12 (ix3 b i j)) = ix2 b i :=
  funext fun a => Fin.ext (by match a with | ⟨0, _⟩ => rfl | ⟨1, _⟩ => rfl)

theorem idx_rowOfSum (b : Fin 8) (i j : Fin 256) : idx_main_v16 (idx_main_v17 (ix3 b i j)) = ix2 b i :=
  funext fun a => Fin.ext (by match a with | ⟨0, _⟩ => rfl | ⟨1, _⟩ => rfl)

theorem idx_keyOfRow (b : Fin 8) (i : Fin 256) (j : Fin 256) : idx_main_v15 (ix2 b i) j = ix3 b i j :=
  funext fun a => Fin.ext (by match a with | ⟨0, _⟩ => rfl | ⟨1, _⟩ => rfl | ⟨2, _⟩ => rfl)

theorem idx_prob (b : Fin 8) (i : Fin 256) (d : Fin 512) (j : Fin 256) : lidx_main_v19 (ix3 b i d) j = ix3 b i j :=
  funext fun a => Fin.ext (by match a with | ⟨0, _⟩ => rfl | ⟨1, _⟩ => rfl | ⟨2, _⟩ => rfl)

theorem idx_value (b : Fin 8) (i : Fin 256) (d : Fin 512) (j : Fin 256) : ridx_main_v19 (ix3 b i d) j = ix3 b j d :=
  funext fun a => Fin.ext (by match a with | ⟨0, _⟩ => rfl | ⟨1, _⟩ => rfl | ⟨2, _⟩ => rfl)

/-! ## The stages at an index -/

/-- The absolute difference at (b, i, j, d) is |Q(b, i, d) − K(b, j, d)|. -/
theorem absdiff_apply (Q K : A3) (b : Fin 8) (i j : Fin 256) (d : Fin 512) :
    val_main_v5 (F := Ideal) Q K (ix4 b i j d) = absE (Q (ix3 b i d) - K (ix3 b j d)) := by
  rw [val_main_v5_apply, val_main_v4_apply, val_main_v2_apply, val_main_v3_apply, val_main_v0_apply, val_main_v1_apply,
    idx_query, idx_key]
  rfl

/-- The summed stage at (b, i, j) is the L1 distance of query row (b, i) and key row (b, j). -/
theorem dist_apply (Q K : A3) (b : Fin 8) (i j : Fin 256) :
    val_main_v6 (F := Ideal) Q K (ix3 b i j) = dist (fun d => Q (ix3 b i d)) (fun d => K (ix3 b j d)) := by
  rw [val_main_v6_apply, val_main_cst_apply]
  simp only [idx_column, absdiff_apply]
  show Ideal.ofBits .f32 0x00000000#32 + _ = _
  rw [Ideal.ofBits_zero_f32, zero_add]
  rfl

/-- The score at (b, i, j) is the negated distance. -/
theorem score_apply (Q K : A3) (b : Fin 8) (i j : Fin 256) :
    val_main_v7 (F := Ideal) Q K (ix3 b i j) = -dist (fun d => Q (ix3 b i d)) (fun d => K (ix3 b j d)) := by
  rw [val_main_v7_apply, dist_apply]
  rfl

/-- The reduced index (b, i) with key coordinate `j` put back is (b, i, j). -/
theorem lift_row (h : S8x256x256.Reduces [2] S8x256) (b : Fin 8) (i : Fin 256) (j : Fin (S8x256x256.size 2)) :
    h.lift (ix2 b i) j = ix3 b i (⟨j.val, j.isLt⟩ : Fin 256) := by
  funext c; apply Fin.ext
  fin_cases c <;> rfl

/-- The row maximum at (b, i): the running maximum from −∞ of the row's scores, then once more against −∞. -/
theorem rowMax_apply (Q K : A3) (b : Fin 8) (i : Fin 256) :
    val_main_v10 (F := Ideal) Q K (ix2 b i) = rowMax (fun d => Q (ix3 b i d)) (fun j d => K (ix3 b j d)) := by
  have h : S8x256x256.Reduces [2] S8x256 := by decide
  have hf : (val_main_v7 (F := Ideal) Q K ∘ h.lift (ix2 b i))
      = fun j : Fin 256 => -dist (fun d => Q (ix3 b i d)) (fun d => K (ix3 b j d)) :=
    funext fun j => by
      show val_main_v7 (F := Ideal) Q K (h.lift (ix2 b i) j) = _
      rw [lift_row h b i j, score_apply]
      rfl
  have hr : val_main_v8 (F := Ideal) Q K (ix2 b i)
      = Finset.fold max negInf (fun j : Fin 256 => -dist (fun d => Q (ix3 b i d)) (fun d => K (ix3 b j d)))
          (Finset.univ : Finset (Fin 256)) :=
    (Host.reduce_eq_fold_single (FloatOps.maximumf (F := Ideal) (φ := .f32)) (val_main_v7 (F := Ideal) Q K) (val_main_cst_0 (F := Ideal))
      reducesTo_S8x256x256_S8x256_d2 h h_S_ (ix2 b i)).trans
      (congrArg (fun f => Finset.fold max negInf f (Finset.univ : Finset (Fin 256))) hf)
  rw [val_main_v10_apply, val_main_v9_apply, val_main_cst_1_apply, hr]
  rfl

/-- The weight at (b, i, j). -/
theorem weight_apply (Q K : A3) (b : Fin 8) (i j : Fin 256) :
    val_main_v14 (F := Ideal) Q K (ix3 b i j) = weight (fun d => Q (ix3 b i d)) (fun j d => K (ix3 b j d)) j := by
  rw [val_main_v14_apply, val_main_v13_apply, val_main_v12_apply, val_main_v11_apply, idx_rowOfMax, rowMax_apply, score_apply]
  rfl

/-- The probability at (b, i, j): the weight over the row's sum of weights. -/
theorem prob_apply (Q K : A3) (b : Fin 8) (i j : Fin 256) :
    val_main_v18 (F := Ideal) Q K (ix3 b i j)
      = Ideal.div (weight (fun d => Q (ix3 b i d)) (fun j d => K (ix3 b j d)) j)
          (∑ j' : Fin 256, weight (fun d => Q (ix3 b i d)) (fun j d => K (ix3 b j d)) j') := by
  rw [val_main_v18_apply, val_main_v17_apply, val_main_v16_apply, idx_rowOfSum, val_main_v15_apply, val_main_cst_2_apply]
  simp only [idx_keyOfRow, weight_apply]
  show Ideal.div _ (Ideal.ofBits .f32 0x00000000#32 + _) = _
  rw [Ideal.ofBits_zero_f32, zero_add]

/-- The reference's result is the attention function of its three arguments. -/
theorem result_eq (Q K V : A3) : val_main_v19 (F := Ideal) Q K V = attention Q K V := by
  funext x
  obtain ⟨b, i, d, rfl⟩ : ∃ (b : Fin 8) (i : Fin 256) (d : Fin 512), x = ix3 b i d := ⟨x 0, x 1, x 2, eq_ix3 x⟩
  rw [val_main_v19_apply, attention_ix3]
  simp only [idx_prob, idx_value, prob_apply]
  rfl

end Cert.ReferenceIdeal.RefValue

end
-- ==== Proof.lean ====
/-
  The kernel and its reference compute the same L1-distance attention over the extended reals.

  For query, key and value arrays Q, K, V of shape 8 × 256 × 512 both programs return, at (b, i, d),

      ∑_j  p(b, i, j) · V(b, j, d),      p(b, i, j) = w(b, i, j) / ∑_j' w(b, i, j'),
      w(b, i, j) = exp (s(b, i, j) − max_j' s(b, i, j')),      s(b, i, j) = − ∑_d |Q(b, i, d) − K(b, j, d)|,

  every operation the exact one on the extended reals, the row maximum taken as a running maximum from −∞ and once
  more against −∞ in both (Proof/Spec.lean: `Cert.L1Attention.attention`).

  The reference forms all 8 × 256 × 256 × 512 absolute differences and sums over d at once (Proof/RefIsSpec.lean). The
  kernel runs on a grid of 8 × 4 points; at point (b, i) it holds rows 64 i … 64 i + 63 of Q(b), all of K(b) and V(b),
  accumulates the distances in a scratch over four chunks of 128 columns starting from zero, turns the scratch into
  probabilities and multiplies by V(b) with bf16 operands, which at the ideal instance are the same extended reals
  (Proof/Piece.lean: the block as a closed term in the body's stages; Proof/BlockDist.lean, Proof/BlockAttn.lean: that
  term at an index; Proof/Whole.lean: the 32 written blocks tile the result array). The two sides differ only in how
  the sum over d is arranged, and addition on the extended reals is commutative and associative with neutral element
  zero, so they agree for all inputs; finiteness of the inputs is not used.

  The kernel's idealization rewrote no operation, so that conjunct is `True`; the three frame conjuncts are the
  generated frame runs (for the reference: its run with the result dropped).
-/
import proofs.«170743_j39024072852184_1_alg».proof.Defs
import proofs.«170743_j39024072852184_1_alg».proof.Proof.Gen.Kernel
import proofs.«170743_j39024072852184_1_alg».proof.Proof.Gen.Kernel.Skeleton
import proofs.«170743_j39024072852184_1_alg».proof.Proof.Gen.Kernel.Launch
import proofs.«170743_j39024072852184_1_alg».proof.Proof.Gen.Kernel.Points
import proofs.«170743_j39024072852184_1_alg».proof.Proof.Gen.Kernel.Frame
import proofs.«170743_j39024072852184_1_alg».proof.Proof.Gen.KernelIdeal
import proofs.«170743_j39024072852184_1_alg».proof.Proof.Gen.KernelIdeal.Skeleton
import proofs.«170743_j39024072852184_1_alg».proof.Proof.Gen.KernelIdeal.Launch
import proofs.«170743_j39024072852184_1_alg».proof.Proof.Gen.KernelIdeal.Points
import proofs.«170743_j39024072852184_1_alg».proof.Proof.Gen.KernelIdeal.Frame
import proofs.«170743_j39024072852184_1_alg».proof.Proof.Gen.ReferenceIdeal
import proofs.«170743_j39024072852184_1_alg».proof.Proof.Gen.Pre_finite_inputs
import proofs.«170743_j39024072852184_1_alg».proof.Proof.Gen.KernelIdeal.Value
import proofs.«170743_j39024072852184_1_alg».proof.Proof.Gen.ReferenceIdeal.Run
import proofs.«170743_j39024072852184_1_alg».proof.Proof.Gen.ReferenceIdeal.Read
import proofs.«170743_j39024072852184_1_alg».proof.Proof.Whole
import proofs.«170743_j39024072852184_1_alg».proof.Proof.RefIsSpec
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference terminates and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on Q, K and V both programs end with the attention function of those arrays in their
    result: the kernel by `Whole.run`, the reference by its run read as `attention` (`RefValue.result_eq`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Whole.result m c
  rw [Cert.ReferenceIdeal.Read.val_main_v19_eq, Cert.ReferenceIdeal.RefValue.result_eq, (hagree c).1, (hagree c).2.1,
    (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
